-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S1024x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S1024x256 : Shape := ⟨2, ![1024, 256]⟩
abbrev S1x1024 : Shape := ⟨2, ![1, 1024]⟩
abbrev S1024x1024 : Shape := ⟨2, ![1024, 1024]⟩

abbrev nBuf : Space → Nat
  | .hbm => 11
  | .vmem => 15
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1024x4096, .f32⟩
  | .local _ .vmem, ⟨0, _⟩ => ⟨S1024x4096, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  ![0, v2.toNat]
def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_6 : BitVec 32 := 0#32
  let v14 : BitVec 1 := Scalar.cmpi .ne v13 c0_i32_6
  v14

def k0_cond2 (i : grid0.Coords) : BitVec 1 :=
  let arg1 : BitVec 32 := BitVec.ofNat 32 (i 1).val
  let c0_i32_7 : BitVec 32 := 0#32
  let v15 : BitVec 1 := Scalar.cmpi .ne arg1 c0_i32_7
  let v16 : BitVec 32 := Scalar.extui v15
  let c0_i32_8 : BitVec 32 := 0#32
  let v17 : BitVec 1 := Scalar.cmpi .ne v16 c0_i32_8
  v17

def k0_cond3 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S4096_S1x4096 : S4096.ShapeCasts S1x4096
  h_S1024x256 : 0 < S1024x256.numel
  inb_S1024x256_S1024x256_0_0 : ∀ a, (![0, 0] : Fin 2 → Nat) a + S1024x256.size a ≤ S1024x256.size a
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 256 ∣ (k0_mult1 i).toNat
  k0_off1_inb : ∀ i : grid0.Coords, ∀ a, (k0_off1 i) a + S1024x256.size a ≤ S1024x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .f32 = 32 ∨ (Rect.block (s := S1024x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x4096.size a
  hwx0_2 : ∀ i : grid0.Coords, EltTy.bits .f32 = 32 ∨ (Rect.block (s := S4096x4096) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x4096.size a
  hwx0_3 : ∀ i : grid0.Coords, EltTy.bits .f32 = 32 ∨ (Rect.block (s := S4096x4096) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x4096.size a
  hwx0_7 : ∀ i : grid0.Coords, EltTy.bits .f32 = 32 ∨ (Rect.block (s := S1024x4096) S1024x1024.size (cc0_transform_7 i) (hinb0_7 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) && !(k0_cond3 i == 1#1) | ⟨_ + 8, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096, .f32⟩
  | .hbm, ⟨10, _⟩ => ⟨S4096, .f32⟩
  | .hbm, ⟨11, _⟩ => ⟨S1024x4096, .f32⟩
  | .hbm, ⟨12, _⟩ => ⟨S1x4096, .f32⟩
  | .hbm, ⟨13, _⟩ => ⟨S1024x4096, .f32⟩
  | .hbm, ⟨14, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S1024x4096_S4096x4096_S1024x4096_1_1_0_0_n_n_wf : DotDims.WF S1024x4096 S4096x4096 S1024x4096 [1] [1] [0] [0] [] []

variable [Facts₀]

def dot_S1024x4096_S4096x4096_S1024x4096_1_1_0_0_n_n : DotDims S1024x4096 S4096x4096 S1024x4096 where
  lhsContracting := [1]
  rhsContracting := [1]
  lhsNonContracting := [0]
  rhsNonContracting := [0]
  lhsBatch := []
  rhsBatch := []
  wf := dot_S1024x4096_S4096x4096_S1024x4096_1_1_0_0_n_n_wf

class Facts : Prop extends Facts₀ where

variable [Facts]
-- ==== Proof.K.Conds.lean ====
/-
  The grid is 4 × 16: point t has output tile n = t / 16 and contraction step k = t % 16. The body's three
  branches test k alone: the first stores the partial product (k = 0), the second adds it to what the output
  block holds (k ≠ 0), the third adds the bias row (k = 15). Decided here over the 64 points, with the
  consequence that the output block is stored at every point.
-/
import proofs.«137109_j56573309224151_2_alg».proof.Proof.Gen.Kernel.Frame
import proofs.«137109_j56573309224151_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken exactly at the first step of each output tile. -/
theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch is taken at every later step. -/
theorem cond2_iff : ∀ t : Fin cfg0.N, k0_cond2 (grid0.coords t) = 1#1 ↔ t.val % 16 ≠ 0 :=
  (by decide +kernel : ∀ t : Fin grid0.N, k0_cond2 (grid0.coords t) = 1#1 ↔ t.val % 16 ≠ 0)

/-- The third branch is taken exactly at the last step of each output tile. -/
theorem cond3_iff : ∀ t : Fin cfg0.N, k0_cond3 (grid0.coords t) = 1#1 ↔ t.val % 16 = 15 :=
  (by decide +kernel : ∀ t : Fin grid0.N, k0_cond3 (grid0.coords t) = 1#1 ↔ t.val % 16 = 15)

/-- At every setting of the coordinates one of the first two branches stores the output block: k = 0 or k ≠ 0. -/
theorem live7 : ∀ i : grid0.Coords, cfg0.idle 7 i = false := by
  intro i
  have h : ∀ k : Fin 16, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)
      && !(Scalar.cmpi .ne (Scalar.extui (Scalar.cmpi .eq (BitVec.ofNat 32 k.val) 15#32)) 0#32 == 1#1)) = false := by
    decide +kernel
  exact h (i 1)

/-- Each window's current staging buffer at point `t`, as the pipeline hands it to the body, and that it is a whole buffer. -/
abbrev ms0 (t : Fin cfg0.N) : Memref sig .tc .vmem S1024x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1024 .f32 := win0_7.stage (cfg0.slots t 7)
abbrev hs7 (t : Fin cfg0.N) : (ms7 t).IsWhole := hstage0_7 ((cfg0.slots t 7).cast nbuf0_7)

/-- One staging buffer of the output window, through which the block's contents are stated. -/
abbrev VO : View sig .tc .vmem S1024x1024 .f32 := (Memref.whole cc0_stg7_0 : Memref sig .tc .vmem S1024x1024 .f32).view

end Cert.Kernel.Body

end
-- ==== Proof.K.RunA.lean ====
/-
  The body at the first contraction step of an output tile (k = 0): only the first branch runs, and it stores the
  partial product of the step's 256 columns into the output block, whatever the block held.
-/
import proofs.«137109_j56573309224151_2_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block's buffer (last store first), with the run that finds
    them: on whole staging buffers, the inputs' at their contents, the body runs to its end, hands every input
    buffer back as it was and the output's with those pieces written. -/
noncomputable def kernelRunA (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : k0_cond1 i = 1#1) (hc2 : ¬k0_cond2 i = 1#1) (hc3 : ¬k0_cond3 i = 1#1)
    (x0 : Vec F S1024x4096 .f32) (x1 x2 x3 : Vec F S1024x256 .f32) (x4 x5 x6 : Vec F S1x1024 .f32) :
    { L7 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Body

end
-- ==== Proof.K.RunB.lean ====
/-
  The body at a middle contraction step of an output tile (0 < k < 15): only the second branch runs; it reads the
  running sum the output block holds and stores it back with the step's partial product added.
-/
import proofs.«137109_j56573309224151_2_alg».proof.Proof.K.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block's buffer (last store first), with the run that finds
    them: on whole staging buffers, the inputs' at their contents, the body runs to its end, hands every input
    buffer back as it was and the output's with those pieces written. -/
noncomputable def kernelRunB (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : ¬k0_cond3 i = 1#1)
    (x0 : Vec F S1024x4096 .f32) (x1 x2 x3 : Vec F S1024x256 .f32) (x4 x5 x6 : Vec F S1x1024 .f32) (xo : Vec F S1024x1024 .f32) :
    { L7 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Body

end
-- ==== Proof.K.RunC.lean ====
/-
  The body at the last contraction step of an output tile (k = 15): the second branch adds the step's partial
  product to the running sum, then the third reads that sum back and stores it with the bias row added to every row.
-/
import proofs.«137109_j56573309224151_2_alg».proof.Proof.K.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block's buffer (last store first), with the run that finds
    them: on whole staging buffers, the inputs' at their contents, the body runs to its end, hands every input
    buffer back as it was and the output's with those pieces written. -/
noncomputable def kernelRunC (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : k0_cond3 i = 1#1)
    (x0 : Vec F S1024x4096 .f32) (x1 x2 x3 : Vec F S1024x256 .f32) (x4 x5 x6 : Vec F S1x1024 .f32) (xo : Vec F S1024x1024 .f32) :
    { L7 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Body

end
-- ==== Proof.K.Frame.lean ====
/-
  The frame of the kernel: every execution runs to its end, faults nowhere and leaves the argument arrays as they
  were. The output block of tile n is an accumulator over the sixteen contraction steps k: stored at k = 0, added
  to at each later step, completed with the bias at k = 15 and written back there. What the block holds after
  each point is defined by recursion on the point; the body at a point is one of the three runs, chosen by k.
-/
import proofs.«137109_j56573309224151_2_alg».proof.Proof.K.RunC
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- At k = 0 the one store covers the block. -/
theorem coverA (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : k0_cond1 i = 1#1) (hc2 : ¬k0_cond2 i = 1#1) (hc3 : ¬k0_cond3 i = 1#1)
    (x0 : Vec F S1024x4096 .f32) (x1 x2 x3 : Vec F S1024x256 .f32) (x4 x5 x6 : Vec F S1x1024 .f32) (y : S1024x1024.Idx) :
    ∃ pc ∈ (kernelRunA c i arg2 harg2 arg3 harg3 arg4 harg4 arg5 harg5 arg6 harg6 arg7 harg7 arg8 harg8 arg9 harg9 hc1 hc2 hc3 x0 x1 x2 x3 x4 x5 x6).1, y ∈ pc.1.set :=
  View.cover_of_tiledL (kernelRunA c i arg2 harg2 arg3 harg3 arg4 harg4 arg5 harg5 arg6 harg6 arg7 harg7 arg8 harg8 arg9 harg9 hc1 hc2 hc3 x0 x1 x2 x3 x4 x5 x6).1 S1024x1024.size (by sl_kernel_rfl) y

/-- The block after a point with k = 0: the stores read back. -/
def outA (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : k0_cond1 i = 1#1) (hc2 : ¬k0_cond2 i = 1#1) (hc3 : ¬k0_cond3 i = 1#1)
    (x0 : Vec F S1024x4096 .f32) (x1 x2 x3 : Vec F S1024x256 .f32) (x4 x5 x6 : Vec F S1x1024 .f32) : Vec F S1024x1024 .f32 :=
  VO.read (Elt F) (VO.writes (Elt F) VO.junk (kernelRunA c i arg2 harg2 arg3 harg3 arg4 harg4 arg5 harg5 arg6 harg6 arg7 harg7 arg8 harg8 arg9 harg9 hc1 hc2 hc3 x0 x1 x2 x3 x4 x5 x6).1)

/-- At 0 < k < 15 the one store covers the block. -/
theorem coverB (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : ¬k0_cond3 i = 1#1)
    (x0 : Vec F S1024x4096 .f32) (x1 x2 x3 : Vec F S1024x256 .f32) (x4 x5 x6 : Vec F S1x1024 .f32) (xo : Vec F S1024x1024 .f32) (y : S1024x1024.Idx) :
    ∃ pc ∈ (kernelRunB c i arg2 harg2 arg3 harg3 arg4 harg4 arg5 harg5 arg6 harg6 arg7 harg7 arg8 harg8 arg9 harg9 hc1 hc2 hc3 x0 x1 x2 x3 x4 x5 x6 xo).1, y ∈ pc.1.set :=
  View.cover_of_tiledL (kernelRunB c i arg2 harg2 arg3 harg3 arg4 harg4 arg5 harg5 arg6 harg6 arg7 harg7 arg8 harg8 arg9 harg9 hc1 hc2 hc3 x0 x1 x2 x3 x4 x5 x6 xo).1 S1024x1024.size (by sl_kernel_rfl) y

/-- The block after a point with 0 < k < 15, from what it held (`xo`). -/
def outB (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : ¬k0_cond3 i = 1#1)
    (x0 : Vec F S1024x4096 .f32) (x1 x2 x3 : Vec F S1024x256 .f32) (x4 x5 x6 : Vec F S1x1024 .f32) (xo : Vec F S1024x1024 .f32) : Vec F S1024x1024 .f32 :=
  VO.read (Elt F) (VO.writes (Elt F) VO.junk (kernelRunB c i arg2 harg2 arg3 harg3 arg4 harg4 arg5 harg5 arg6 harg6 arg7 harg7 arg8 harg8 arg9 harg9 hc1 hc2 hc3 x0 x1 x2 x3 x4 x5 x6 xo).1)

/-- At k = 15 the last store covers the block. -/
theorem coverC (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : k0_cond3 i = 1#1)
    (x0 : Vec F S1024x4096 .f32) (x1 x2 x3 : Vec F S1024x256 .f32) (x4 x5 x6 : Vec F S1x1024 .f32) (xo : Vec F S1024x1024 .f32) (y : S1024x1024.Idx) :
    ∃ pc ∈ (kernelRunC c i arg2 harg2 arg3 harg3 arg4 harg4 arg5 harg5 arg6 harg6 arg7 harg7 arg8 harg8 arg9 harg9 hc1 hc2 hc3 x0 x1 x2 x3 x4 x5 x6 xo).1, y ∈ pc.1.set :=
  ⟨_, List.mem_cons_self, View.mem_set_unit_zero (S := S1024x1024) (funext fun a => by match a with | ⟨0, _⟩ => rfl | ⟨1, _⟩ => rfl) inb_S1024x1024_S1024x1024_0_0 y⟩

/-- The block after a point with k = 15, from what it held (`xo`). -/
def outC (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : k0_cond3 i = 1#1)
    (x0 : Vec F S1024x4096 .f32) (x1 x2 x3 : Vec F S1024x256 .f32) (x4 x5 x6 : Vec F S1x1024 .f32) (xo : Vec F S1024x1024 .f32) : Vec F S1024x1024 .f32 :=
  VO.read (Elt F) (VO.writes (Elt F) VO.junk (kernelRunC c i arg2 harg2 arg3 harg3 arg4 harg4 arg5 harg5 arg6 harg6 arg7 harg7 arg8 harg8 arg9 harg9 hc1 hc2 hc3 x0 x1 x2 x3 x4 x5 x6 xo).1)

/-! ## The accumulation, point by point -/

/-- What the output block's buffer holds after the body at point `n`: at k = 0 the case-A contents; at a later
    step the case-B (or, at k = 15, case-C) contents over what the point before left — the buffer is not written
    back in between. -/
def outsAt (c : Dev nD) : (n : ℕ) → n < cfg0.N → Vec F S1024x1024 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩)
      ((cond1_iff ⟨0, hn⟩).mpr (Nat.zero_mod _)) (fun h => (cond2_iff ⟨0, hn⟩).mp h (Nat.zero_mod _)) (fun h => by have := (cond3_iff ⟨0, hn⟩).mp h; simp at this)
      (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 16 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩)
        ((cond1_iff ⟨n + 1, hn⟩).mpr h0) (fun h => (cond2_iff ⟨n + 1, hn⟩).mp h h0) (fun h => by have := (cond3_iff ⟨n + 1, hn⟩).mp h; dsimp only at this; omega)
        (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else if h15 : (n + 1) % 16 = 15 then
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩)
        (fun h => h0 ((cond1_iff ⟨n + 1, hn⟩).mp h)) ((cond2_iff ⟨n + 1, hn⟩).mpr h0) ((cond3_iff ⟨n + 1, hn⟩).mpr h15)
        (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩)
        (fun h => h0 ((cond1_iff ⟨n + 1, hn⟩).mp h)) ((cond2_iff ⟨n + 1, hn⟩).mpr h0) (fun h => h15 ((cond3_iff ⟨n + 1, hn⟩).mp h))
        (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))

/-- `outsAt` at a point with k = 0. -/
theorem outsAt_A (c : Dev nD) (t : Fin cfg0.N) (h0 : t.val % 16 = 0) :
    outsAt m c t.val t.isLt = outA c (grid0.coords t) (ms0 t) (hs0 t) (ms1 t) (hs1 t) (ms2 t) (hs2 t) (ms3 t) (hs3 t) (ms4 t) (hs4 t) (ms5 t) (hs5 t) (ms6 t) (hs6 t) (ms7 t) (hs7 t)
      ((cond1_iff t).mpr h0) (fun h => (cond2_iff t).mp h h0) (fun h => by have := (cond3_iff t).mp h; omega)
      (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- `outsAt` at a point with 0 < k < 15: over what the point before left. -/
theorem outsAt_B (c : Dev nD) (t : Fin cfg0.N) (h0 : ¬t.val % 16 = 0) (h15 : ¬t.val % 16 = 15) :
    outsAt m c t.val t.isLt = outB c (grid0.coords t) (ms0 t) (hs0 t) (ms1 t) (hs1 t) (ms2 t) (hs2 t) (ms3 t) (hs3 t) (ms4 t) (hs4 t) (ms5 t) (hs5 t) (ms6 t) (hs6 t) (ms7 t) (hs7 t)
      (fun h => h0 ((cond1_iff t).mp h)) ((cond2_iff t).mpr h0) (fun h => h15 ((cond3_iff t).mp h))
      (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h15).trans rfl)

/-- `outsAt` at a point with k = 15: over what the point before left. -/
theorem outsAt_C (c : Dev nD) (t : Fin cfg0.N) (h0 : ¬t.val % 16 = 0) (h15 : t.val % 16 = 15) :
    outsAt m c t.val t.isLt = outC c (grid0.coords t) (ms0 t) (hs0 t) (ms1 t) (hs1 t) (ms2 t) (hs2 t) (ms3 t) (hs3 t) (ms4 t) (hs4 t) (ms5 t) (hs5 t) (ms6 t) (hs6 t) (ms7 t) (hs7 t)
      (fun h => h0 ((cond1_iff t).mp h)) ((cond2_iff t).mpr h0) ((cond3_iff t).mpr h15)
      (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h15).trans rfl)

/-! ## The pipeline's proof data -/

/-- The proof data on core `c`: the arrays as the region finds them; after the body at point `t` each input's
    buffer at its block and the output's at `outsAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At a point with k ≠ 0 the output block's buffer holds what the body left at the point before: the buffer was
    not written back in between (the write-back is at k = 15 only), and the block is stored at every point. -/
theorem before_7_kept (c : Dev nD) (t : Fin cfg0.N) (h0 : ¬t.val % 16 = 0) (d) :
    (dats m 0 c).before 7 t d = outsAt m c (t.val - 1) (Nat.lt_of_le_of_lt (Nat.sub_le _ _) t.isLt) := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    live7 (fun _ _ => rfl)]
  dsimp only [dats]

/-- The output block is stored at every point, so the body hands its buffer back at the stated contents. -/
theorem leaves_7 (c : Dev nD) (t : Fin cfg0.N) :
    (dats m 0 c).leavesExact 7 t = owns (c : Thread nD τ) (ms7 t) fullShare ((dats m 0 c).after 7 t) := by
  unfold Dat.leavesExact; rw [live7]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (dats m 0 c).leavesExact 7 t)

set_option maxHeartbeats 1600000 in
/-- The body at any point: the inputs' buffers hold their blocks; k says which of the three runs applies, and at
    k ≠ 0 the output's buffer holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, leaves_7, after_7]
  have hN : t.val < 64 := lt_of_lt_of_eq t.isLt (show cfg0.N = 64 from N_0)
  by_cases h0 : t.val % 16 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunA c (grid0.coords t) _ _ _ _ _ _ _ _ _ _ _ _ _ _ _ _ ((cond1_iff t).mpr h0) (fun h => (cond2_iff t).mp h h0) (fun h => by have := (cond3_iff t).mp h; omega)
      (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _ _ _)
  · simp only [before_7_kept m c t h0]
    by_cases h15 : t.val % 16 = 15
    · rw [outsAt_C m c t h0 h15]
      unfold outC
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunC c (grid0.coords t) _ _ _ _ _ _ _ _ _ _ _ _ _ _ _ _ (fun h => h0 ((cond1_iff t).mp h)) ((cond2_iff t).mpr h0) ((cond3_iff t).mpr h15)
        (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverC c _ _ _ _ _ _ _ _ _ _ _ _ _ _ _ _ _ _ _ _ _ _ _ _ _ _ _ _)
    · rw [outsAt_B m c t h0 h15]
      unfold outB
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunB c (grid0.coords t) _ _ _ _ _ _ _ _ _ _ _ _ _ _ _ _ (fun h => h0 ((cond1_iff t).mp h)) ((cond2_iff t).mpr h0) (fun h => h15 ((cond3_iff t).mp h))
        (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverB c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends with every argument array as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.KI.Conds.lean ====
/-
  The grid is 4 × 16: point t has output tile n = t / 16 and contraction step k = t % 16. The body's three
  branches test k alone: the first stores the partial product (k = 0), the second adds it to what the output
  block holds (k ≠ 0), the third adds the bias row (k = 15). Decided here over the 64 points, with the
  consequence that the output block is stored at every point.
-/
import proofs.«137109_j56573309224151_2_alg».proof.Proof.Gen.KernelIdeal.Frame
import proofs.«137109_j56573309224151_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken exactly at the first step of each output tile. -/
theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch is taken at every later step. -/
theorem cond2_iff : ∀ t : Fin cfg0.N, k0_cond2 (grid0.coords t) = 1#1 ↔ t.val % 16 ≠ 0 :=
  (by decide +kernel : ∀ t : Fin grid0.N, k0_cond2 (grid0.coords t) = 1#1 ↔ t.val % 16 ≠ 0)

/-- The third branch is taken exactly at the last step of each output tile. -/
theorem cond3_iff : ∀ t : Fin cfg0.N, k0_cond3 (grid0.coords t) = 1#1 ↔ t.val % 16 = 15 :=
  (by decide +kernel : ∀ t : Fin grid0.N, k0_cond3 (grid0.coords t) = 1#1 ↔ t.val % 16 = 15)

/-- At every setting of the coordinates one of the first two branches stores the output block: k = 0 or k ≠ 0. -/
theorem live7 : ∀ i : grid0.Coords, cfg0.idle 7 i = false := by
  intro i
  have h : ∀ k : Fin 16, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)
      && !(Scalar.cmpi .ne (Scalar.extui (Scalar.cmpi .eq (BitVec.ofNat 32 k.val) 15#32)) 0#32 == 1#1)) = false := by
    decide +kernel
  exact h (i 1)

/-- Each window's current staging buffer at point `t`, as the pipeline hands it to the body, and that it is a whole buffer. -/
abbrev ms0 (t : Fin cfg0.N) : Memref sig .tc .vmem S1024x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1024 .f32 := win0_7.stage (cfg0.slots t 7)
abbrev hs7 (t : Fin cfg0.N) : (ms7 t).IsWhole := hstage0_7 ((cfg0.slots t 7).cast nbuf0_7)

/-- One staging buffer of the output window, through which the block's contents are stated. -/
abbrev VO : View sig .tc .vmem S1024x1024 .f32 := (Memref.whole cc0_stg7_0 : Memref sig .tc .vmem S1024x1024 .f32).view

end Cert.KernelIdeal.Body

end
-- ==== Proof.KI.RunA.lean ====
/-
  The body at the first contraction step of an output tile (k = 0): only the first branch runs, and it stores the
  partial product of the step's 256 columns into the output block, whatever the block held.
-/
import proofs.«137109_j56573309224151_2_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block's buffer (last store first), with the run that finds
    them: on whole staging buffers, the inputs' at their contents, the body runs to its end, hands every input
    buffer back as it was and the output's with those pieces written. -/
noncomputable def kernelRunA (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : k0_cond1 i = 1#1) (hc2 : ¬k0_cond2 i = 1#1) (hc3 : ¬k0_cond3 i = 1#1)
    (x0 : Vec F S1024x4096 .f32) (x1 x2 x3 : Vec F S1024x256 .f32) (x4 x5 x6 : Vec F S1x1024 .f32) :
    { L7 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Body

end
-- ==== Proof.KI.RunB.lean ====
/-
  The body at a middle contraction step of an output tile (0 < k < 15): only the second branch runs; it reads the
  running sum the output block holds and stores it back with the step's partial product added.
-/
import proofs.«137109_j56573309224151_2_alg».proof.Proof.KI.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block's buffer (last store first), with the run that finds
    them: on whole staging buffers, the inputs' at their contents, the body runs to its end, hands every input
    buffer back as it was and the output's with those pieces written. -/
noncomputable def kernelRunB (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : ¬k0_cond3 i = 1#1)
    (x0 : Vec F S1024x4096 .f32) (x1 x2 x3 : Vec F S1024x256 .f32) (x4 x5 x6 : Vec F S1x1024 .f32) (xo : Vec F S1024x1024 .f32) :
    { L7 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Body

end
-- ==== Proof.KI.RunC.lean ====
/-
  The body at the last contraction step of an output tile (k = 15): the second branch adds the step's partial
  product to the running sum, then the third reads that sum back and stores it with the bias row added to every row.
-/
import proofs.«137109_j56573309224151_2_alg».proof.Proof.KI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block's buffer (last store first), with the run that finds
    them: on whole staging buffers, the inputs' at their contents, the body runs to its end, hands every input
    buffer back as it was and the output's with those pieces written. -/
noncomputable def kernelRunC (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : k0_cond3 i = 1#1)
    (x0 : Vec F S1024x4096 .f32) (x1 x2 x3 : Vec F S1024x256 .f32) (x4 x5 x6 : Vec F S1x1024 .f32) (xo : Vec F S1024x1024 .f32) :
    { L7 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Body

end
-- ==== Proof.KI.Frame.lean ====
/-
  The frame of the kernel: every execution runs to its end, faults nowhere and leaves the argument arrays as they
  were. The output block of tile n is an accumulator over the sixteen contraction steps k: stored at k = 0, added
  to at each later step, completed with the bias at k = 15 and written back there. What the block holds after
  each point is defined by recursion on the point; the body at a point is one of the three runs, chosen by k.
-/
import proofs.«137109_j56573309224151_2_alg».proof.Proof.KI.RunC
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- At k = 0 the one store covers the block. -/
theorem coverA (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : k0_cond1 i = 1#1) (hc2 : ¬k0_cond2 i = 1#1) (hc3 : ¬k0_cond3 i = 1#1)
    (x0 : Vec F S1024x4096 .f32) (x1 x2 x3 : Vec F S1024x256 .f32) (x4 x5 x6 : Vec F S1x1024 .f32) (y : S1024x1024.Idx) :
    ∃ pc ∈ (kernelRunA c i arg2 harg2 arg3 harg3 arg4 harg4 arg5 harg5 arg6 harg6 arg7 harg7 arg8 harg8 arg9 harg9 hc1 hc2 hc3 x0 x1 x2 x3 x4 x5 x6).1, y ∈ pc.1.set :=
  View.cover_of_tiledL (kernelRunA c i arg2 harg2 arg3 harg3 arg4 harg4 arg5 harg5 arg6 harg6 arg7 harg7 arg8 harg8 arg9 harg9 hc1 hc2 hc3 x0 x1 x2 x3 x4 x5 x6).1 S1024x1024.size (by sl_kernel_rfl) y

/-- The block after a point with k = 0: the stores read back. -/
def outA (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : k0_cond1 i = 1#1) (hc2 : ¬k0_cond2 i = 1#1) (hc3 : ¬k0_cond3 i = 1#1)
    (x0 : Vec F S1024x4096 .f32) (x1 x2 x3 : Vec F S1024x256 .f32) (x4 x5 x6 : Vec F S1x1024 .f32) : Vec F S1024x1024 .f32 :=
  VO.read (Elt F) (VO.writes (Elt F) VO.junk (kernelRunA c i arg2 harg2 arg3 harg3 arg4 harg4 arg5 harg5 arg6 harg6 arg7 harg7 arg8 harg8 arg9 harg9 hc1 hc2 hc3 x0 x1 x2 x3 x4 x5 x6).1)

/-- At 0 < k < 15 the one store covers the block. -/
theorem coverB (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : ¬k0_cond3 i = 1#1)
    (x0 : Vec F S1024x4096 .f32) (x1 x2 x3 : Vec F S1024x256 .f32) (x4 x5 x6 : Vec F S1x1024 .f32) (xo : Vec F S1024x1024 .f32) (y : S1024x1024.Idx) :
    ∃ pc ∈ (kernelRunB c i arg2 harg2 arg3 harg3 arg4 harg4 arg5 harg5 arg6 harg6 arg7 harg7 arg8 harg8 arg9 harg9 hc1 hc2 hc3 x0 x1 x2 x3 x4 x5 x6 xo).1, y ∈ pc.1.set :=
  View.cover_of_tiledL (kernelRunB c i arg2 harg2 arg3 harg3 arg4 harg4 arg5 harg5 arg6 harg6 arg7 harg7 arg8 harg8 arg9 harg9 hc1 hc2 hc3 x0 x1 x2 x3 x4 x5 x6 xo).1 S1024x1024.size (by sl_kernel_rfl) y

/-- The block after a point with 0 < k < 15, from what it held (`xo`). -/
def outB (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : ¬k0_cond3 i = 1#1)
    (x0 : Vec F S1024x4096 .f32) (x1 x2 x3 : Vec F S1024x256 .f32) (x4 x5 x6 : Vec F S1x1024 .f32) (xo : Vec F S1024x1024 .f32) : Vec F S1024x1024 .f32 :=
  VO.read (Elt F) (VO.writes (Elt F) VO.junk (kernelRunB c i arg2 harg2 arg3 harg3 arg4 harg4 arg5 harg5 arg6 harg6 arg7 harg7 arg8 harg8 arg9 harg9 hc1 hc2 hc3 x0 x1 x2 x3 x4 x5 x6 xo).1)

/-- At k = 15 the last store covers the block. -/
theorem coverC (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : k0_cond3 i = 1#1)
    (x0 : Vec F S1024x4096 .f32) (x1 x2 x3 : Vec F S1024x256 .f32) (x4 x5 x6 : Vec F S1x1024 .f32) (xo : Vec F S1024x1024 .f32) (y : S1024x1024.Idx) :
    ∃ pc ∈ (kernelRunC c i arg2 harg2 arg3 harg3 arg4 harg4 arg5 harg5 arg6 harg6 arg7 harg7 arg8 harg8 arg9 harg9 hc1 hc2 hc3 x0 x1 x2 x3 x4 x5 x6 xo).1, y ∈ pc.1.set :=
  ⟨_, List.mem_cons_self, View.mem_set_unit_zero (S := S1024x1024) (funext fun a => by match a with | ⟨0, _⟩ => rfl | ⟨1, _⟩ => rfl) inb_S1024x1024_S1024x1024_0_0 y⟩

/-- The block after a point with k = 15, from what it held (`xo`). -/
def outC (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : k0_cond3 i = 1#1)
    (x0 : Vec F S1024x4096 .f32) (x1 x2 x3 : Vec F S1024x256 .f32) (x4 x5 x6 : Vec F S1x1024 .f32) (xo : Vec F S1024x1024 .f32) : Vec F S1024x1024 .f32 :=
  VO.read (Elt F) (VO.writes (Elt F) VO.junk (kernelRunC c i arg2 harg2 arg3 harg3 arg4 harg4 arg5 harg5 arg6 harg6 arg7 harg7 arg8 harg8 arg9 harg9 hc1 hc2 hc3 x0 x1 x2 x3 x4 x5 x6 xo).1)

/-! ## The accumulation, point by point -/

/-- What the output block's buffer holds after the body at point `n`: at k = 0 the case-A contents; at a later
    step the case-B (or, at k = 15, case-C) contents over what the point before left — the buffer is not written
    back in between. -/
def outsAt (c : Dev nD) : (n : ℕ) → n < cfg0.N → Vec F S1024x1024 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩)
      ((cond1_iff ⟨0, hn⟩).mpr (Nat.zero_mod _)) (fun h => (cond2_iff ⟨0, hn⟩).mp h (Nat.zero_mod _)) (fun h => by have := (cond3_iff ⟨0, hn⟩).mp h; simp at this)
      (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 16 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩)
        ((cond1_iff ⟨n + 1, hn⟩).mpr h0) (fun h => (cond2_iff ⟨n + 1, hn⟩).mp h h0) (fun h => by have := (cond3_iff ⟨n + 1, hn⟩).mp h; dsimp only at this; omega)
        (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else if h15 : (n + 1) % 16 = 15 then
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩)
        (fun h => h0 ((cond1_iff ⟨n + 1, hn⟩).mp h)) ((cond2_iff ⟨n + 1, hn⟩).mpr h0) ((cond3_iff ⟨n + 1, hn⟩).mpr h15)
        (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩)
        (fun h => h0 ((cond1_iff ⟨n + 1, hn⟩).mp h)) ((cond2_iff ⟨n + 1, hn⟩).mpr h0) (fun h => h15 ((cond3_iff ⟨n + 1, hn⟩).mp h))
        (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn))

/-- `outsAt` at a point with k = 0. -/
theorem outsAt_A (c : Dev nD) (t : Fin cfg0.N) (h0 : t.val % 16 = 0) :
    outsAt m c t.val t.isLt = outA c (grid0.coords t) (ms0 t) (hs0 t) (ms1 t) (hs1 t) (ms2 t) (hs2 t) (ms3 t) (hs3 t) (ms4 t) (hs4 t) (ms5 t) (hs5 t) (ms6 t) (hs6 t) (ms7 t) (hs7 t)
      ((cond1_iff t).mpr h0) (fun h => (cond2_iff t).mp h h0) (fun h => by have := (cond3_iff t).mp h; omega)
      (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- `outsAt` at a point with 0 < k < 15: over what the point before left. -/
theorem outsAt_B (c : Dev nD) (t : Fin cfg0.N) (h0 : ¬t.val % 16 = 0) (h15 : ¬t.val % 16 = 15) :
    outsAt m c t.val t.isLt = outB c (grid0.coords t) (ms0 t) (hs0 t) (ms1 t) (hs1 t) (ms2 t) (hs2 t) (ms3 t) (hs3 t) (ms4 t) (hs4 t) (ms5 t) (hs5 t) (ms6 t) (hs6 t) (ms7 t) (hs7 t)
      (fun h => h0 ((cond1_iff t).mp h)) ((cond2_iff t).mpr h0) (fun h => h15 ((cond3_iff t).mp h))
      (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h15).trans rfl)

/-- `outsAt` at a point with k = 15: over what the point before left. -/
theorem outsAt_C (c : Dev nD) (t : Fin cfg0.N) (h0 : ¬t.val % 16 = 0) (h15 : t.val % 16 = 15) :
    outsAt m c t.val t.isLt = outC c (grid0.coords t) (ms0 t) (hs0 t) (ms1 t) (hs1 t) (ms2 t) (hs2 t) (ms3 t) (hs3 t) (ms4 t) (hs4 t) (ms5 t) (hs5 t) (ms6 t) (hs6 t) (ms7 t) (hs7 t)
      (fun h => h0 ((cond1_iff t).mp h)) ((cond2_iff t).mpr h0) ((cond3_iff t).mpr h15)
      (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h15).trans rfl)

/-! ## The pipeline's proof data -/

/-- The proof data on core `c`: the arrays as the region finds them; after the body at point `t` each input's
    buffer at its block and the output's at `outsAt`; the invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At a point with k ≠ 0 the output block's buffer holds what the body left at the point before: the buffer was
    not written back in between (the write-back is at k = 15 only), and the block is stored at every point. -/
theorem before_7_kept (c : Dev nD) (t : Fin cfg0.N) (h0 : ¬t.val % 16 = 0) (d) :
    (dats m 0 c).before 7 t d = outsAt m c (t.val - 1) (Nat.lt_of_le_of_lt (Nat.sub_le _ _) t.isLt) := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    live7 (fun _ _ => rfl)]
  dsimp only [dats]

/-- The output block is stored at every point, so the body hands its buffer back at the stated contents. -/
theorem leaves_7 (c : Dev nD) (t : Fin cfg0.N) :
    (dats m 0 c).leavesExact 7 t = owns (c : Thread nD τ) (ms7 t) fullShare ((dats m 0 c).after 7 t) := by
  unfold Dat.leavesExact; rw [live7]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (dats m 0 c).leavesExact 7 t)

set_option maxHeartbeats 1600000 in
/-- The body at any point: the inputs' buffers hold their blocks; k says which of the three runs applies, and at
    k ≠ 0 the output's buffer holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, leaves_7, after_7]
  have hN : t.val < 64 := lt_of_lt_of_eq t.isLt (show cfg0.N = 64 from N_0)
  by_cases h0 : t.val % 16 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunA c (grid0.coords t) _ _ _ _ _ _ _ _ _ _ _ _ _ _ _ _ ((cond1_iff t).mpr h0) (fun h => (cond2_iff t).mp h h0) (fun h => by have := (cond3_iff t).mp h; omega)
      (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverA c _ _ _ _ _ _ _ _ _ _ _ _ _ _ _ _ _ _ _ _ _ _ _ _ _ _ _)
  · simp only [before_7_kept m c t h0]
    by_cases h15 : t.val % 16 = 15
    · rw [outsAt_C m c t h0 h15]
      unfold outC
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunC c (grid0.coords t) _ _ _ _ _ _ _ _ _ _ _ _ _ _ _ _ (fun h => h0 ((cond1_iff t).mp h)) ((cond2_iff t).mpr h0) ((cond3_iff t).mpr h15)
        (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverC c _ _ _ _ _ _ _ _ _ _ _ _ _ _ _ _ _ _ _ _ _ _ _ _ _ _ _ _)
    · rw [outsAt_B m c t h0 h15]
      unfold outB
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRunB c (grid0.coords t) _ _ _ _ _ _ _ _ _ _ _ _ _ _ _ _ (fun h => h0 ((cond1_iff t).mp h)) ((cond2_iff t).mpr h0) (fun h => h15 ((cond3_iff t).mp h))
        (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverB c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends with every argument array as it was. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.KI.Pay.lean ====
/-
  The three values the kernel body stores into its output block, read at an entry (p, q), over the
  extended reals (every float operation exact, a change of float format the identity).

  * the first is the product of the block of x with the sampled weight block, both contracted on their last
    axis:  ∑ j < 256, x[p, j] · (μ[q, j] + ε[q, j] · σ[q, j]);
  * the second adds that product to what the output block already holds;
  * the third adds the sampled bias row  μb[q] + εb[q] · σb[q],  broadcast over the rows, to what the
    output block already holds.
-/
import proofs.«137109_j56573309224151_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ## The operand indices of the product

The product contracts the last axis of both operands: at output entry `i` and contraction index `k` the left
operand is read at (i 0, k) and the right operand at (i 1, k). -/

/-- The left operand's row is the output's row. -/
theorem lhsIdx_row (i : S1024x1024.Idx) (k : dot_S1024x256_S1024x256_S1024x1024_1_1_0_0_n_n.contr.Idx) :
    (dot_S1024x256_S1024x256_S1024x1024_1_1_0_0_n_n.lhsIdx i k 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl

/-- The left operand's column is the contraction index. -/
theorem lhsIdx_col (i : S1024x1024.Idx) (k : dot_S1024x256_S1024x256_S1024x1024_1_1_0_0_n_n.contr.Idx) :
    (dot_S1024x256_S1024x256_S1024x1024_1_1_0_0_n_n.lhsIdx i k 1).val = (k ⟨0, by decide⟩).val :=
  dot_S1024x256_S1024x256_S1024x1024_1_1_0_0_n_n.lhsIdx_val_of_single rfl i k

/-- The right operand's row is the output's column. -/
theorem rhsIdx_row (i : S1024x1024.Idx) (k : dot_S1024x256_S1024x256_S1024x1024_1_1_0_0_n_n.contr.Idx) :
    (dot_S1024x256_S1024x256_S1024x1024_1_1_0_0_n_n.rhsIdx i k 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- The right operand's column is the contraction index. -/
theorem rhsIdx_col (i : S1024x1024.Idx) (k : dot_S1024x256_S1024x256_S1024x1024_1_1_0_0_n_n.contr.Idx) :
    (dot_S1024x256_S1024x256_S1024x1024_1_1_0_0_n_n.rhsIdx i k 1).val = (k ⟨0, by decide⟩).val :=
  dot_S1024x256_S1024x256_S1024x1024_1_1_0_0_n_n.rhsIdx_val_of_single rfl i k

/-! ## The three stored values at an entry -/

/-- Entry (p, q) of the product: row p of the first operand against row q of μ + ε · σ. -/
theorem pay1_apply (v3 v4 v5 v6 : Vec Ideal S1024x256 .f32) (p q : Fin 1024) :
    k0_pay1 (F := Ideal) v3 v4 v5 v6 (ix2 p q)
      = ∑ j : Fin 256, v3 (ix2 p j) * (v4 (ix2 q j) + v5 (ix2 q j) * v6 (ix2 q j)) := by
  unfold k0_pay1
  simp only [matmul]
  rw [Ideal.matmul_constant_zero_apply,
    ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q)
      ((contrEquiv1 dot_S1024x256_S1024x256_S1024x1024_1_1_0_0_n_n 256 rfl rfl).symm k) = ix2 p k :=
    funext fun a => Fin.ext (by
      match a with
      | ⟨0, _⟩ => exact lhsIdx_row _ _
      | ⟨1, _⟩ => exact (lhsIdx_col _ _).trans hk)
  have er : dot_S1024x256_S1024x256_S1024x1024_1_1_0_0_n_n.rhsIdx (ix2 p q)
      ((contrEquiv1 dot_S1024x256_S1024x256_S1024x1024_1_1_0_0_n_n 256 rfl rfl).symm k) = ix2 q k :=
    funext fun a => Fin.ext (by
      match a with
      | ⟨0, _⟩ => exact rhsIdx_row _ _
      | ⟨1, _⟩ => exact (rhsIdx_col _ _).trans hk)
  rw [el, er]
  rfl

/-- Entry (p, q) of the second stored value: what the output block holds plus the product. -/
theorem pay2_apply (v3 v4 v5 v6 : Vec Ideal S1024x256 .f32) (v21 : Vec Ideal S1024x1024 .f32) (p q : Fin 1024) :
    k0_pay2 (F := Ideal) v3 v4 v5 v6 v21 (ix2 p q)
      = v21 (ix2 p q) + k0_pay1 (F := Ideal) v3 v4 v5 v6 (ix2 p q) := by
  unfold k0_pay2
  simp only [shapeCast_self]
  rfl

/-- Entry (p, q) of the third stored value: what the output block holds plus the bias row's entry q,
    μb + εb · σb, the same on every row p. -/
theorem pay3_apply (v21 v23 v25 : Vec Ideal S1x1024 .f32) (v29 : Vec Ideal S1024x1024 .f32) (p q : Fin 1024) :
    k0_pay3 (F := Ideal) v21 v23 v25 v29 (ix2 p q)
      = v29 (ix2 p q) + (v21 (ix2 0 q) + v23 (ix2 0 q) * v25 (ix2 0 q)) := by
  unfold k0_pay3
  simp only [shapeCast_self]
  rw [addf_apply, broadcastTo_1b_ab_apply]
  rfl

end Cert.KernelIdeal.PayValue

end
-- ==== Proof.KI.Blocks.lean ====
/-
  What the three runs of the body leave in the output block, as the body's stored values over its loads, and where
  each window's block sits in its array at a point: the weight windows hold rows 1024·n … and columns 256·k … of
  their arrays, the bias windows columns 1024·n … of the bias rows (each a vector reshaped to one row by the host),
  and x is resident whole, the body loading its columns 256·k … itself.
-/
import proofs.«137109_j56573309224151_2_alg».proof.Proof.KI.Frame
import proofs.«137109_j56573309224151_2_alg».proof.Proof.KI.Pay
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.BlockValue

open Cert.KernelIdeal Cert.KernelIdeal.Gen Cert.KernelIdeal.Body Idealize.ShloMosaic.ValueIdx

variable {F : FTy → Type} [FloatOps F]

theorem hz : (![0, 0] : Fin 2 → Nat) = fun _ => 0 := funext fun a => by fin_cases a <;> rfl

/-- The 256 columns of x the body loads at step k: columns 256·k … 256·k + 255 of the resident block. -/
abbrev xcols (i : grid0.Coords) (x0 : Vec F S1024x4096 .f32) : Vec F S1024x256 .f32 :=
  View.ld x0 (Rect.unit (s := S1024x4096) (k0_off1 i) S1024x256.size (k0_off1_inb i))

/-- At k = 0 the block ends at the step's partial product. -/
theorem outA_eq (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : k0_cond1 i = 1#1) (hc2 : ¬k0_cond2 i = 1#1) (hc3 : ¬k0_cond3 i = 1#1)
    (x0 : Vec F S1024x4096 .f32) (x1 x2 x3 : Vec F S1024x256 .f32) (x4 x5 x6 : Vec F S1x1024 .f32) :
    outA c i arg2 harg2 arg3 harg3 arg4 harg4 arg5 harg5 arg6 harg6 arg7 harg7 arg8 harg8 arg9 harg9 hc1 hc2 hc3 x0 x1 x2 x3 x4 x5 x6 = k0_pay1 (xcols i x0) x1 x3 x2 := by
  unfold outA
  rw [View.read_writes_eq_canon _ _ _ (coverA c i arg2 harg2 arg3 harg3 arg4 harg4 arg5 harg5 arg6 harg6 arg7 harg7 arg8 harg8 arg9 harg9 hc1 hc2 hc3 x0 x1 x2 x3 x4 x5 x6)]
  unfold kernelRunA
  dsimp only
  rw [View.canon_unit_zero (S := S1024x1024) hz]
  simp only [View.readAt_eq_ld, harg2.read_unread, harg3.read_unread, harg4.read_unread, harg5.read_unread,
    View.ld_unit_zero (S := S1024x256) hz]

/-- At 0 < k < 15 the block ends at what it held plus the step's partial product. -/
theorem outB_eq (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : ¬k0_cond3 i = 1#1)
    (x0 : Vec F S1024x4096 .f32) (x1 x2 x3 : Vec F S1024x256 .f32) (x4 x5 x6 : Vec F S1x1024 .f32) (xo : Vec F S1024x1024 .f32) :
    outB c i arg2 harg2 arg3 harg3 arg4 harg4 arg5 harg5 arg6 harg6 arg7 harg7 arg8 harg8 arg9 harg9 hc1 hc2 hc3 x0 x1 x2 x3 x4 x5 x6 xo = k0_pay2 (xcols i x0) x1 x3 x2 xo := by
  unfold outB
  rw [View.read_writes_eq_canon _ _ _ (coverB c i arg2 harg2 arg3 harg3 arg4 harg4 arg5 harg5 arg6 harg6 arg7 harg7 arg8 harg8 arg9 harg9 hc1 hc2 hc3 x0 x1 x2 x3 x4 x5 x6 xo)]
  unfold kernelRunB
  dsimp only
  rw [View.canon_unit_zero (S := S1024x1024) hz]
  simp only [View.readAt_eq_ld, harg2.read_unread, harg3.read_unread, harg4.read_unread, harg5.read_unread, harg9.read_unread,
    View.ld_unit_zero (S := S1024x256) hz, View.ld_unit_zero (S := S1024x1024) hz]

/-- At k = 15 the block ends at what it held plus the step's partial product, plus the bias row on every row:
    the third branch reads back what the second stored. -/
theorem outC_eq (c : Dev nD) (i : grid0.Coords) (arg2 : Memref sig .tc .vmem S1024x4096 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (hc1 : ¬k0_cond1 i = 1#1) (hc2 : k0_cond2 i = 1#1) (hc3 : k0_cond3 i = 1#1)
    (x0 : Vec F S1024x4096 .f32) (x1 x2 x3 : Vec F S1024x256 .f32) (x4 x5 x6 : Vec F S1x1024 .f32) (xo : Vec F S1024x1024 .f32) :
    outC c i arg2 harg2 arg3 harg3 arg4 harg4 arg5 harg5 arg6 harg6 arg7 harg7 arg8 harg8 arg9 harg9 hc1 hc2 hc3 x0 x1 x2 x3 x4 x5 x6 xo = k0_pay3 x4 x6 x5 (k0_pay2 (xcols i x0) x1 x3 x2 xo) := by
  unfold outC
  rw [View.read_writes_eq_canon _ _ _ (coverC c i arg2 harg2 arg3 harg3 arg4 harg4 arg5 harg5 arg6 harg6 arg7 harg7 arg8 harg8 arg9 harg9 hc1 hc2 hc3 x0 x1 x2 x3 x4 x5 x6 xo)]
  unfold kernelRunC
  dsimp only
  sl_unfold_words
  rw [View.canon_cons_unit_zero (S := S1024x1024) hz, View.readCov_unit_zero (S := S1024x1024) _ hz]
  simp only [View.readAt_eq_ld, harg2.read_unread, harg3.read_unread, harg4.read_unread, harg5.read_unread,
    harg6.read_unread, harg7.read_unread, harg8.read_unread, harg9.read_unread,
    View.ld_unit_zero (S := S1024x256) hz, View.ld_unit_zero (S := S1024x1024) hz, View.ld_unit_zero (S := S1x1024) hz]
  rfl

variable (m : (ℓ : Loc nD τ sig) → Buf (Elt F) ℓ)

/-! ## The blocks, entry by entry

Point t works on output tile n = t / 16 at contraction step k = t % 16: the weight windows hold rows 1024·n … and
columns 256·k … of their arrays, the bias windows columns 1024·n … of their rows, and x is resident whole. -/

/-- Where each window's block sits at point t, decided over the 64 points. -/
theorem idx_facts : ∀ t : Fin cfg0.N,
    (win0_0.index t 0 = 0 ∧ win0_0.index t 1 = 0)
    ∧ (win0_1.index t 0 = t.val / 16 ∧ win0_1.index t 1 = t.val % 16)
    ∧ (win0_2.index t 0 = t.val / 16 ∧ win0_2.index t 1 = t.val % 16)
    ∧ (win0_3.index t 0 = t.val / 16 ∧ win0_3.index t 1 = t.val % 16)
    ∧ (win0_4.index t 0 = 0 ∧ win0_4.index t 1 = t.val / 16)
    ∧ (win0_5.index t 0 = 0 ∧ win0_5.index t 1 = t.val / 16)
    ∧ (win0_6.index t 0 = 0 ∧ win0_6.index t 1 = t.val / 16)
    ∧ (win0_7.index t 0 = 0 ∧ win0_7.index t 1 = t.val / 16)
    ∧ (k0_off1 (grid0.coords t) 0 = 0 ∧ k0_off1 (grid0.coords t) 1 = 256 * (t.val % 16)) :=
  (by decide +kernel : ∀ t : Fin grid0.N,
    (win0_0.index t 0 = 0 ∧ win0_0.index t 1 = 0)
    ∧ (win0_1.index t 0 = t.val / 16 ∧ win0_1.index t 1 = t.val % 16)
    ∧ (win0_2.index t 0 = t.val / 16 ∧ win0_2.index t 1 = t.val % 16)
    ∧ (win0_3.index t 0 = t.val / 16 ∧ win0_3.index t 1 = t.val % 16)
    ∧ (win0_4.index t 0 = 0 ∧ win0_4.index t 1 = t.val / 16)
    ∧ (win0_5.index t 0 = 0 ∧ win0_5.index t 1 = t.val / 16)
    ∧ (win0_6.index t 0 = 0 ∧ win0_6.index t 1 = t.val / 16)
    ∧ (win0_7.index t 0 = 0 ∧ win0_7.index t 1 = t.val / 16)
    ∧ (k0_off1 (grid0.coords t) 0 = 0 ∧ k0_off1 (grid0.coords t) 1 = 256 * (t.val % 16)))

theorem tlt (t : Fin cfg0.N) : t.val < 64 := lt_of_lt_of_eq t.isLt (show cfg0.N = 64 from N_0)

/-- The loaded columns of x at step k = t % 16: entry (p, j) is x[p, 256·k + j]. -/
theorem xcols_apply (c : Dev nD) (t : Fin cfg0.N) (p : Fin 1024) (j : Fin 256) :
    xcols (grid0.coords t) (iblk m c 0 t) (ix2 p j)
      = (V m c main_arg0 : S1024x4096.Idx → Elt F .f32) (ix2 p ⟨256 * (t.val % 16) + j.val, by have := tlt t; omega⟩) := by
  unfold iblk
  show ((cfg0.win 0).blk t).view.read (Elt F) (V m c main_arg0) _ = _
  rw [View.read_apply]
  show V m c main_arg0 _ = V m c main_arg0 _
  congr 1
  funext a
  apply Fin.ext
  match a with
  | ⟨0, _⟩ =>
    show win0_0.index t 0 * 1024 + 1 * (k0_off1 (grid0.coords t) 0 + 1 * p.val) = p.val
    rw [(idx_facts t).1.1, (idx_facts t).2.2.2.2.2.2.2.2.1]; omega
  | ⟨1, _⟩ =>
    show win0_0.index t 1 * 4096 + 1 * (k0_off1 (grid0.coords t) 1 + 1 * j.val) = 256 * (t.val % 16) + j.val
    rw [(idx_facts t).1.2, (idx_facts t).2.2.2.2.2.2.2.2.2]; omega

/-- A weight window's block at point t: entry (q, j) is the array's entry (1024·n + q, 256·k + j). -/
theorem iblk1_apply (c : Dev nD) (t : Fin cfg0.N) (q : Fin 1024) (j : Fin 256) :
    (iblk m c 1 t : Vec F S1024x256 .f32) (ix2 q j)
      = (V m c main_arg1 : S4096x4096.Idx → Elt F .f32) (ix2 ⟨1024 * (t.val / 16) + q.val, by have := tlt t; omega⟩ ⟨256 * (t.val % 16) + j.val, by have := tlt t; omega⟩) := by
  unfold iblk
  show ((cfg0.win 1).blk t).view.read (Elt F) (V m c main_arg1) _ = _
  rw [View.read_apply]
  show V m c main_arg1 _ = V m c main_arg1 _
  congr 1
  funext a
  apply Fin.ext
  match a with
  | ⟨0, _⟩ =>
    show win0_1.index t 0 * 1024 + 1 * q.val = 1024 * (t.val / 16) + q.val
    rw [(idx_facts t).2.1.1]; omega
  | ⟨1, _⟩ =>
    show win0_1.index t 1 * 256 + 1 * j.val = 256 * (t.val % 16) + j.val
    rw [(idx_facts t).2.1.2]; omega

theorem iblk2_apply (c : Dev nD) (t : Fin cfg0.N) (q : Fin 1024) (j : Fin 256) :
    (iblk m c 2 t : Vec F S1024x256 .f32) (ix2 q j)
      = (V m c main_arg2 : S4096x4096.Idx → Elt F .f32) (ix2 ⟨1024 * (t.val / 16) + q.val, by have := tlt t; omega⟩ ⟨256 * (t.val % 16) + j.val, by have := tlt t; omega⟩) := by
  unfold iblk
  show ((cfg0.win 2).blk t).view.read (Elt F) (V m c main_arg2) _ = _
  rw [View.read_apply]
  show V m c main_arg2 _ = V m c main_arg2 _
  congr 1
  funext a
  apply Fin.ext
  match a with
  | ⟨0, _⟩ =>
    show win0_2.index t 0 * 1024 + 1 * q.val = 1024 * (t.val / 16) + q.val
    rw [(idx_facts t).2.2.1.1]; omega
  | ⟨1, _⟩ =>
    show win0_2.index t 1 * 256 + 1 * j.val = 256 * (t.val % 16) + j.val
    rw [(idx_facts t).2.2.1.2]; omega

theorem iblk3_apply (c : Dev nD) (t : Fin cfg0.N) (q : Fin 1024) (j : Fin 256) :
    (iblk m c 3 t : Vec F S1024x256 .f32) (ix2 q j)
      = (V m c main_arg5 : S4096x4096.Idx → Elt F .f32) (ix2 ⟨1024 * (t.val / 16) + q.val, by have := tlt t; omega⟩ ⟨256 * (t.val % 16) + j.val, by have := tlt t; omega⟩) := by
  unfold iblk
  show ((cfg0.win 3).blk t).view.read (Elt F) (V m c main_arg5) _ = _
  rw [View.read_apply]
  show V m c main_arg5 _ = V m c main_arg5 _
  congr 1
  funext a
  apply Fin.ext
  match a with
  | ⟨0, _⟩ =>
    show win0_3.index t 0 * 1024 + 1 * q.val = 1024 * (t.val / 16) + q.val
    rw [(idx_facts t).2.2.2.1.1]; omega
  | ⟨1, _⟩ =>
    show win0_3.index t 1 * 256 + 1 * j.val = 256 * (t.val % 16) + j.val
    rw [(idx_facts t).2.2.2.1.2]; omega

/-- The host reshapes each bias vector to one row before the call: entry (0, o) of the row is entry o of the vector. -/
theorem V_v0_apply (c : Dev nD) (o : Fin 4096) :
    (V m c main_v0 : S1x4096.Idx → Elt F .f32) (ix2 0 o) = (m ((c : Thread nD τ).loc main_arg3) : S4096.Idx → Elt F .f32) (ix1 o) := by
  have e : (V m c main_v0 : S1x4096.Idx → Elt F .f32) = shapeCast S1x4096 (m ((c : Thread nD τ).loc main_arg3)) shapeCasts_S4096_S1x4096 := by
    dsimp only [Gen.V, Gen.hostOps0]; after_results; rfl
  rw [e]
  exact shapeCast_apply _ _ (ix2 0 o) (ix1 o) (by rw [Shape.rowMajor_val_one, Shape.rowMajor_val_two]; simp)

theorem V_v1_apply (c : Dev nD) (o : Fin 4096) :
    (V m c main_v1 : S1x4096.Idx → Elt F .f32) (ix2 0 o) = (m ((c : Thread nD τ).loc main_arg4) : S4096.Idx → Elt F .f32) (ix1 o) := by
  have e : (V m c main_v1 : S1x4096.Idx → Elt F .f32) = shapeCast S1x4096 (m ((c : Thread nD τ).loc main_arg4)) shapeCasts_S4096_S1x4096 := by
    dsimp only [Gen.V, Gen.hostOps0]; after_results; rfl
  rw [e]
  exact shapeCast_apply _ _ (ix2 0 o) (ix1 o) (by rw [Shape.rowMajor_val_one, Shape.rowMajor_val_two]; simp)

theorem V_v2_apply (c : Dev nD) (o : Fin 4096) :
    (V m c main_v2 : S1x4096.Idx → Elt F .f32) (ix2 0 o) = (m ((c : Thread nD τ).loc main_arg6) : S4096.Idx → Elt F .f32) (ix1 o) := by
  have e : (V m c main_v2 : S1x4096.Idx → Elt F .f32) = shapeCast S1x4096 (m ((c : Thread nD τ).loc main_arg6)) shapeCasts_S4096_S1x4096 := by
    dsimp only [Gen.V, Gen.hostOps0]; after_results; rfl
  rw [e]
  exact shapeCast_apply _ _ (ix2 0 o) (ix1 o) (by rw [Shape.rowMajor_val_one, Shape.rowMajor_val_two]; simp)

/-- A bias window's block at point t: entry (0, q) is the row's entry (0, 1024·n + q). -/
theorem iblk4_apply (c : Dev nD) (t : Fin cfg0.N) (q : Fin 1024) :
    (iblk m c 4 t : Vec F S1x1024 .f32) (ix2 0 q)
      = (V m c main_v0 : S1x4096.Idx → Elt F .f32) (ix2 0 ⟨1024 * (t.val / 16) + q.val, by have := tlt t; omega⟩) := by
  unfold iblk
  show ((cfg0.win 4).blk t).view.read (Elt F) (V m c main_v0) _ = _
  rw [View.read_apply]
  show V m c main_v0 _ = V m c main_v0 _
  congr 1
  funext a
  apply Fin.ext
  match a with
  | ⟨0, _⟩ =>
    show win0_4.index t 0 * 1 + 1 * 0 = 0
    rw [(idx_facts t).2.2.2.2.1.1]
  | ⟨1, _⟩ =>
    show win0_4.index t 1 * 1024 + 1 * q.val = 1024 * (t.val / 16) + q.val
    rw [(idx_facts t).2.2.2.2.1.2]; omega

theorem iblk5_apply (c : Dev nD) (t : Fin cfg0.N) (q : Fin 1024) :
    (iblk m c 5 t : Vec F S1x1024 .f32) (ix2 0 q)
      = (V m c main_v1 : S1x4096.Idx → Elt F .f32) (ix2 0 ⟨1024 * (t.val / 16) + q.val, by have := tlt t; omega⟩) := by
  unfold iblk
  show ((cfg0.win 5).blk t).view.read (Elt F) (V m c main_v1) _ = _
  rw [View.read_apply]
  show V m c main_v1 _ = V m c main_v1 _
  congr 1
  funext a
  apply Fin.ext
  match a with
  | ⟨0, _⟩ =>
    show win0_5.index t 0 * 1 + 1 * 0 = 0
    rw [(idx_facts t).2.2.2.2.2.1.1]
  | ⟨1, _⟩ =>
    show win0_5.index t 1 * 1024 + 1 * q.val = 1024 * (t.val / 16) + q.val
    rw [(idx_facts t).2.2.2.2.2.1.2]; omega

theorem iblk6_apply (c : Dev nD) (t : Fin cfg0.N) (q : Fin 1024) :
    (iblk m c 6 t : Vec F S1x1024 .f32) (ix2 0 q)
      = (V m c main_v2 : S1x4096.Idx → Elt F .f32) (ix2 0 ⟨1024 * (t.val / 16) + q.val, by have := tlt t; omega⟩) := by
  unfold iblk
  show ((cfg0.win 6).blk t).view.read (Elt F) (V m c main_v2) _ = _
  rw [View.read_apply]
  show V m c main_v2 _ = V m c main_v2 _
  congr 1
  funext a
  apply Fin.ext
  match a with
  | ⟨0, _⟩ =>
    show win0_6.index t 0 * 1 + 1 * 0 = 0
    rw [(idx_facts t).2.2.2.2.2.2.1.1]
  | ⟨1, _⟩ =>
    show win0_6.index t 1 * 1024 + 1 * q.val = 1024 * (t.val / 16) + q.val
    rw [(idx_facts t).2.2.2.2.2.2.1.2]; omega

end Cert.KernelIdeal.BlockValue

end
-- ==== Proof.Spec.lean ====
/-
  The result both programs compute, as one function of the seven argument arrays, entry by entry over the
  extended reals: a dense layer whose weight and bias are sampled by reparameterization,

      out[b, o] = (∑ k < 4096, x[b, k] · (μ[o, k] + ε[o, k] · σ[o, k])) + (μb[o] + εb[o] · σb[o]).

  The arguments come in the programs' order: x, μ, σ, μb, σb, ε, εb.
-/
import Idealize.ShloMosaic.PureOps.Ideal
import Idealize.ShloMosaic.Lib.ValueIdx

noncomputable section

namespace Cert.Spec

open Idealize.ShloMosaic Idealize.ShloMosaic.ValueIdx

/-- Entry (o, k) of the sampled weight: μ + ε · σ. -/
def weight (wmu wsig ew : (⟨2, ![4096, 4096]⟩ : Shape).Idx → EReal) (o k : Fin 4096) : EReal :=
  wmu (ix2 o k) + ew (ix2 o k) * wsig (ix2 o k)

/-- Entry o of the sampled bias: μb + εb · σb. -/
def bias (bmu bsig eb : (⟨1, ![4096]⟩ : Shape).Idx → EReal) (o : Fin 4096) : EReal :=
  bmu (ix1 o) + eb (ix1 o) * bsig (ix1 o)

/-- The layer's output: row b of x against row o of the sampled weight, plus the sampled bias at o. -/
def G (x : (⟨2, ![1024, 4096]⟩ : Shape).Idx → EReal) (wmu wsig : (⟨2, ![4096, 4096]⟩ : Shape).Idx → EReal)
    (bmu bsig : (⟨1, ![4096]⟩ : Shape).Idx → EReal) (ew : (⟨2, ![4096, 4096]⟩ : Shape).Idx → EReal)
    (eb : (⟨1, ![4096]⟩ : Shape).Idx → EReal) : (⟨2, ![1024, 4096]⟩ : Shape).Idx → EReal :=
  fun i => (∑ k : Fin 4096, x (ix2 (i 0) k) * weight wmu wsig ew (i 1) k) + bias bmu bsig eb (i 1)

end Cert.Spec

end
-- ==== Proof.LibSumRegroup.lean ====
/-
  Regrouping a finite sum in a commutative monoid: a sum over m·n consecutive positions as a double sum
  over the quotient and the remainder of the position by n, and a sum over a rank-1 index set as the sum
  over its one coordinate. Both hold in any additive commutative monoid — in particular on the extended
  reals, where no finiteness is needed to regroup a sum.
-/
import Idealize.ShloMosaic.PureOps.Ideal
import Idealize.ShloMosaic.Lib.ValueIdx

noncomputable section

open scoped BigOperators

namespace Cert.Lib.SumRegroup

open Idealize.ShloMosaic Idealize.ShloMosaic.ValueIdx

/-- A sum over m·n consecutive positions is the double sum over (c, d) of the position n·c + d. -/
theorem sum_fin_mul {M : Type*} [AddCommMonoid M] (m n N : ℕ) (hN : N = m * n) (f : Fin N → M) :
    ∑ k : Fin N, f k = ∑ c : Fin m, ∑ d : Fin n, f (Fin.cast hN.symm (finProdFinEquiv (c, d))) := by
  subst hN
  rw [← Equiv.sum_comp finProdFinEquiv f, Fintype.sum_prod_type]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Lib.SumRegroup

end
-- ==== Proof.KI.Value.lean ====
/-
  The kernel's result, at the exact instance: after the run the output array holds the layer's output
  out[b, o] = (∑ k < 4096, x[b, k] · (μ[o, k] + ε[o, k] · σ[o, k])) + (μb[o] + εb[o] · σb[o]).
  The block of tile n accumulates, step by step, the partial products of the sixteen groups of 256 columns — a sum in
  step order, which over the extended reals is the whole sum however it is grouped, addition being associative and
  commutative there with no finiteness needed — and at the last step receives the bias of its 1024 columns; the four
  blocks written back tile the array.
-/
import proofs.«137109_j56573309224151_2_alg».proof.Proof.KI.Blocks
import proofs.«137109_j56573309224151_2_alg».proof.Proof.Spec
import proofs.«137109_j56573309224151_2_alg».proof.Proof.LibSumRegroup

set_option maxRecDepth 16384

noncomputable section

open Idealize.ShloMosaic Idealize.ShloMosaic.TcCoe Idealize.SL.Sem
open Idealize.ShloMosaic.Pipeline (Dat)

namespace Cert.KernelIdeal.BlockValue

open Cert.KernelIdeal Cert.KernelIdeal.Gen Cert.KernelIdeal.Body Idealize.ShloMosaic.ValueIdx

variable (m : (ℓ : Loc nD τ sig) → Buf (Elt Ideal) ℓ) (ρ : Dev nD → PrngReg)

/-! ## One step's partial product and the bias, from the argument arrays -/

/-- Core `c`'s argument array x, as a function of its two coordinates' index. -/
abbrev aX (c : Dev nD) : S1024x4096.Idx → EReal := m ((c : Thread nD τ).loc main_arg0)

/-- The sampled weight at (o, k), from core `c`'s argument arrays. -/
abbrev wt (c : Dev nD) (o k : Fin 4096) : EReal :=
  Cert.Spec.weight (m ((c : Thread nD τ).loc main_arg1)) (m ((c : Thread nD τ).loc main_arg2)) (m ((c : Thread nD τ).loc main_arg5)) o k

/-- Step s of output tile n at entry (p, q): the 256 columns 256·s … of row p of x against row 1024·n + q of the
    sampled weight (zero past the grid, where it is never read). -/
def part (c : Dev nD) (n s : ℕ) (p q : Fin 1024) : EReal :=
  if h : n < 4 ∧ s < 16 then
    ∑ j : Fin 256, aX m c (ix2 p ⟨256 * s + j.val, by omega⟩)
      * wt m c ⟨1024 * n + q.val, by omega⟩ ⟨256 * s + j.val, by omega⟩
  else 0

/-- The sampled bias of output tile n at column q. -/
def bia (c : Dev nD) (n : ℕ) (q : Fin 1024) : EReal :=
  if h : n < 4 then
    Cert.Spec.bias (m ((c : Thread nD τ).loc main_arg3)) (m ((c : Thread nD τ).loc main_arg4)) (m ((c : Thread nD τ).loc main_arg6)) ⟨1024 * n + q.val, by omega⟩
  else 0

/-- The product the body forms at point t is step t % 16 of tile t / 16. -/
theorem pay1_blocks (c : Dev nD) (t : Fin cfg0.N) (p q : Fin 1024) :
    k0_pay1 (F := Ideal) (xcols (grid0.coords t) (iblk m c 0 t)) (iblk m c 1 t) (iblk m c 3 t) (iblk m c 2 t) (ix2 p q)
      = part m c (t.val / 16) (t.val % 16) p q := by
  have ht := tlt t
  rw [PayValue.pay1_apply, part, dif_pos ⟨by omega, by omega⟩]
  refine Finset.sum_congr rfl fun j _ => ?_
  rw [xcols_apply, iblk1_apply, iblk3_apply, iblk2_apply, V_main_arg0, V_main_arg1, V_main_arg5, V_main_arg2]
  rfl

/-- The bias row the body adds at point t is the bias of tile t / 16. -/
theorem pay3_blocks (c : Dev nD) (t : Fin cfg0.N) (Y : Vec Ideal S1024x1024 .f32) (p q : Fin 1024) :
    k0_pay3 (F := Ideal) (iblk m c 4 t) (iblk m c 6 t) (iblk m c 5 t) Y (ix2 p q) = Y (ix2 p q) + bia m c (t.val / 16) q := by
  have ht := tlt t
  rw [PayValue.pay3_apply, bia, dif_pos (by omega)]
  rw [iblk4_apply, iblk6_apply, iblk5_apply, V_v0_apply, V_v2_apply, V_v1_apply]
  rfl

/-! ## The accumulation in closed form -/

/-- After a point that is not the last step of its tile, the output block holds the sum of the tile's steps so far. -/
theorem acc_partial (c : Dev nD) : ∀ (n : ℕ) (h : n < cfg0.N), n % 16 ≠ 15 → ∀ p q : Fin 1024,
    outsAt m c n h (ix2 p q) = ∑ s ∈ Finset.range (n % 16 + 1), part m c (n / 16) s p q
  | 0, h, _, p, q => by
    rw [outsAt_A m c ⟨0, h⟩ rfl, outA_eq, pay1_blocks]
    simp
  | n + 1, h, h15, p, q => by
    by_cases h0 : (n + 1) % 16 = 0
    · rw [outsAt_A m c ⟨n + 1, h⟩ h0, outA_eq, pay1_blocks]
      show part m c ((n + 1) / 16) ((n + 1) % 16) p q = _
      rw [h0]; simp
    · rw [outsAt_B m c ⟨n + 1, h⟩ h0 h15, outB_eq, PayValue.pay2_apply, pay1_blocks]
      show outsAt m c n (Nat.lt_of_succ_lt h) (ix2 p q) + part m c ((n + 1) / 16) ((n + 1) % 16) p q = _
      rw [acc_partial c n (Nat.lt_of_succ_lt h) (by omega) p q]
      have e1 : (n + 1) / 16 = n / 16 := by omega
      have e2 : (n + 1) % 16 = n % 16 + 1 := by omega
      rw [e1, e2, Finset.sum_range_succ _ (n % 16 + 1)]

/-- After the last step of a tile the block holds all sixteen steps and the bias. -/
theorem acc_final (c : Dev nD) (t : Fin cfg0.N) (h15 : t.val % 16 = 15) (p q : Fin 1024) :
    outsAt m c t.val t.isLt (ix2 p q) = (∑ s ∈ Finset.range 16, part m c (t.val / 16) s p q) + bia m c (t.val / 16) q := by
  have h0 : ¬t.val % 16 = 0 := by omega
  rw [outsAt_C m c t h0 h15, outC_eq, pay3_blocks, PayValue.pay2_apply, pay1_blocks,
    acc_partial m c (t.val - 1) _ (by omega) p q]
  have e1 : (t.val - 1) / 16 = t.val / 16 := by omega
  have e2 : (t.val - 1) % 16 + 1 = 15 := by omega
  rw [e1, e2, h15, Finset.sum_range_succ _ 15]

/-- The sixteen steps of a tile are the whole contraction: 4096 = 16 · 256 columns, step s holding 256·s …. -/
theorem parts_sum (c : Dev nD) (n : Fin 4) (p q : Fin 1024) :
    ∑ s ∈ Finset.range 16, part m c n.val s p q
      = ∑ k : Fin 4096, aX m c (ix2 p k) * wt m c ⟨1024 * n.val + q.val, by omega⟩ k := by
  rw [Cert.Lib.SumRegroup.sum_fin_mul 16 256 4096 rfl, ← Fin.sum_univ_eq_sum_range (fun s => part m c n.val s p q) 16]
  refine Finset.sum_congr rfl fun s _ => ?_
  rw [part, dif_pos ⟨n.isLt, s.isLt⟩]
  refine Finset.sum_congr rfl fun j _ => ?_
  have e : (⟨256 * s.val + j.val, by omega⟩ : Fin 4096) = Fin.cast (by rfl) (finProdFinEquiv (s, j)) :=
    Fin.ext (by simp [finProdFinEquiv]; omega)
  rw [e]

/-! ## From the blocks to the array -/

/-- The layer's output from core `c`'s argument arrays. -/
abbrev result (c : Dev nD) : Buf (Elt Ideal) ((c : Thread nD τ).loc main_v3) :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What a point writes back (the last step of a tile) is its block of the layer's output. -/
theorem flushed_eq (c : Dev nD) (t : Fin cfg0.N) (hf : (cfg0.win 7).flush t = true) :
    (dats m 0 c).flushed 7 t = ((cfg0.win 7).blk t).view.read (Elt Ideal) (result m c) := by
  have h15 : t.val % 16 = 15 := (flush0_7 t).mp hf
  have ht := tlt t
  show (cfg0.win 7).cut (grid0.coords t) ((dats m 0 c).after 7 t) = _
  rw [after_7]
  funext y
  obtain ⟨p, q, rfl⟩ : ∃ (p q : Fin 1024), y = ix2 p q := ⟨y 0, y 1, eq_ix2 y⟩
  show outsAt m c t.val t.isLt (ix2 p q) = _
  rw [acc_final m c t h15 p q, View.read_apply]
  have ei : ((cfg0.win 7).blk t).view.emb (ix2 p q) = (ix2 p ⟨1024 * (t.val / 16) + q.val, by omega⟩ : S1024x4096.Idx) := by
    funext a; apply Fin.ext
    match a with
    | ⟨0, _⟩ =>
      show win0_7.index t 0 * 1024 + 1 * p.val = p.val
      rw [(idx_facts t).2.2.2.2.2.2.2.1.1]; omega
    | ⟨1, _⟩ =>
      show win0_7.index t 1 * 1024 + 1 * q.val = 1024 * (t.val / 16) + q.val
      rw [(idx_facts t).2.2.2.2.2.2.2.1.2]; omega
  rw [ei]
  show _ = Cert.Spec.G _ _ _ _ _ _ _ (ix2 p ⟨1024 * (t.val / 16) + q.val, by omega⟩)
  unfold Cert.Spec.G
  rw [parts_sum m c ⟨t.val / 16, by omega⟩ p q, bia, dif_pos (by omega)]

/-- An entry of the array is in point t's block iff each coordinate is in the block's range. -/
theorem mem_blk (t : Fin cfg0.N) (i : S1024x4096.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v3).slice (win0_7.rect t)).set ↔ _
  rw [View.set_slice_whole, Rect.mem_set_unit]
  exact Iff.rfl

/-- The four written-back blocks tile the output array: column o lies in the block of tile o / 1024. -/
theorem cover (i : S1024x4096.Idx) : ∃ t : Fin cfg0.N, (cfg0.win 7).flush t = true ∧ i ∈ ((cfg0.win 7).blk t).view.set := by
  have hi0 : (i 0).val < 1024 := (i 0).isLt
  have hi1 : (i 1).val < 4096 := (i 1).isLt
  have hN : cfg0.N = 64 := N_0
  let t : Fin cfg0.N := ⟨16 * ((i 1).val / 1024) + 15, by omega⟩
  have htv : t.val = 16 * ((i 1).val / 1024) + 15 := rfl
  refine ⟨t, (flush0_7 t).mpr (by omega), ?_⟩
  rw [mem_blk]
  intro a
  match a with
  | ⟨0, _⟩ =>
    show win0_7.index t 0 * 1024 ≤ (i 0).val ∧ (i 0).val < win0_7.index t 0 * 1024 + 1024
    rw [(idx_facts t).2.2.2.2.2.2.2.1.1]; omega
  | ⟨1, _⟩ =>
    show win0_7.index t 1 * 1024 ≤ (i 1).val ∧ (i 1).val < win0_7.index t 1 * 1024 + 1024
    rw [(idx_facts t).2.2.2.2.2.2.2.1.2]; omega

/-- The output array ends at the layer's output. -/
theorem final (c : Dev nD) : (dats m 0 c).arrAt 7 cfg0.N = result m c :=
  (dats m 0 c).arrAt_eq_of_cover 7 (result m c) (flushed_eq m c) cover

/-- The run, read: the result array at the layer's output of the argument arrays, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 3).trans (((dats m 0 c).arrAt_in 3 rfl _).trans ((A_eq m c 3).trans (V_main_arg5 m c))),
      ((h c).2 main_arg6 (Pipeline.mem_restRefs_of main_arg6 (by decide) (by decide))).trans (V_main_arg6 m c)⟩)
    (run_main m ρ)

end Cert.KernelIdeal.BlockValue

end
-- ==== Proof.RefG.lean ====
/-
  The reference program computes the specification: entry by entry over the extended reals, its result is

      out[b, o] = (∑ k < 4096, x[b, k] · (μ[o, k] + ε[o, k] · σ[o, k])) + (μb[o] + εb[o] · σb[o]).

  The reference forms the sampled weight μ + ε · σ and the sampled bias μb + εb · σb elementwise, contracts x with
  the weight over the last axis of both, and adds the bias broadcast over the rows; read at an entry, each of these
  steps is the corresponding term of the specification.
-/
import proofs.«137109_j56573309224151_2_alg».proof.Proof.Gen.ReferenceIdeal.Read
import proofs.«137109_j56573309224151_2_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The reference's result is the specified layer output, as a function of the seven argument arrays
    x, μ, σ, μb, σb, ε, εb. -/
theorem ref_eq_G (x0 : (⟨S1024x4096, .f32⟩ : BufTy).Contents (Elt Ideal))
    (x1 x2 : (⟨S4096x4096, .f32⟩ : BufTy).Contents (Elt Ideal))
    (x3 x4 : (⟨S4096, .f32⟩ : BufTy).Contents (Elt Ideal))
    (x5 : (⟨S4096x4096, .f32⟩ : BufTy).Contents (Elt Ideal))
    (x6 : (⟨S4096, .f32⟩ : BufTy).Contents (Elt Ideal)) :
    Cert.ReferenceIdeal.Read.val_main_v7 (F := Ideal) x0 x1 x2 x3 x4 x5 x6 = Cert.Spec.G x0 x1 x2 x3 x4 x5 x6 := by
  funext i
  -- the contraction reads x at (i 0, k) and the weight at (i 1, k)
  have el : ∀ k : Fin 4096, Read.lidx_main_v4 i k = ix2 (i 0) k := fun k =>
    funext fun a => Fin.ext (by match a with | ⟨0, _⟩ => rfl | ⟨1, _⟩ => rfl)
  have er : ∀ k : Fin 4096, Read.ridx_main_v4 i k = ix2 (i 1) k := fun k =>
    funext fun a => Fin.ext (by match a with | ⟨0, _⟩ => rfl | ⟨1, _⟩ => rfl)
  -- the two broadcasts read the bias at i 1
  have eb : Read.idx_main_v5 (Read.idx_main_v6 i) = ix1 (i 1) :=
    funext fun a => Fin.ext (by match a with | ⟨0, _⟩ => rfl)
  rw [Read.val_main_v7_apply, Read.val_main_v4_apply, Read.val_main_v6_apply, Read.val_main_v5_apply,
    Read.val_main_v3_apply, Read.val_main_v2_apply]
  simp only [Read.val_main_v1_apply, Read.val_main_v0_apply, el, er, eb, Ideal.addf_def, Ideal.mulf_def]
  rfl

end Cert.ReferenceIdeal.RefValue

end
-- ==== Proof.lean ====
/-
  The certificate of a dense layer with reparameterized weight and bias, against its plain reference.

  Both programs compute, entry by entry over the extended reals,
      out[b, o] = (∑ k < 4096, x[b, k] · (μ[o, k] + ε[o, k] · σ[o, k])) + (μb[o] + εb[o] · σb[o]).
  The kernel tiles the output's columns in four tiles of 1024 and the contraction in sixteen steps of 256 columns,
  accumulating a tile's partial products in its output block (stored at the first step, added to at each later step,
  completed with the bias at the last and written back there); the reference forms the sampled weight and bias whole,
  contracts once and adds. The two agree because a finite sum over the extended reals does not depend on how it is
  grouped or ordered; no cancellation or distributivity is used, so the finiteness of the inputs is never needed.

  The three frames: each kernel program runs to its end, faults nowhere and leaves its arguments as they were — the body
  at a point is one of three runs chosen by the contraction step —, and the reference's frame is its run with the result
  dropped. The idealization rewrote no operation, so there is nothing to preserve.
-/
import proofs.«137109_j56573309224151_2_alg».proof.Defs
import proofs.«137109_j56573309224151_2_alg».proof.Proof.Gen.Kernel
import proofs.«137109_j56573309224151_2_alg».proof.Proof.Gen.KernelIdeal
import proofs.«137109_j56573309224151_2_alg».proof.Proof.Gen.ReferenceIdeal
import proofs.«137109_j56573309224151_2_alg».proof.Proof.Gen.Pre_finite_inputs
import proofs.«137109_j56573309224151_2_alg».proof.Proof.Gen.ReferenceIdeal.Run
import proofs.«137109_j56573309224151_2_alg».proof.Proof.K.Frame
import proofs.«137109_j56573309224151_2_alg».proof.Proof.KI.Value
import proofs.«137109_j56573309224151_2_alg».proof.Proof.RefG
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Body.frame m ρ

/-- So does its reading over the extended reals. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the arguments both programs end with the layer's output of those arguments. -/
theorem algebraic : Cert.algebraic_KernelIdeal_ReferenceIdeal := by
  intro m ρ m' ρ' _ hagree
  refine ⟨fun c => Cert.KernelIdeal.BlockValue.result m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq_G,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
